-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S32768x256 .f32) (main_arg1 : FVec F S256x512 .f32) (main_arg2 : FVec F S512 .f32) (main_arg3 : FVec F S512x128 .f32) (main_arg4 : FVec F S128 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_v13 main_v16
-- ==== Kernel.lean ====
abbrev S32768x256 : Shape := ⟨2, ![32768, 256]⟩
abbrev S256x512 : Shape := ⟨2, ![256, 512]⟩
abbrev S512 : Shape := ⟨1, ![512]⟩
abbrev S512x128 : Shape := ⟨2, ![512, 128]⟩
abbrev S128 : Shape := ⟨1, ![128]⟩
abbrev S_ : Shape := ⟨0, ![]⟩
abbrev S1x512 : Shape := ⟨2, ![1, 512]⟩
abbrev S1 : Shape := ⟨1, ![1]⟩
abbrev S1x128 : Shape := ⟨2, ![1, 128]⟩
abbrev S32768x128 : Shape := ⟨2, ![32768, 128]⟩
abbrev S8192x256 : Shape := ⟨2, ![8192, 256]⟩
abbrev S8192x128 : Shape := ⟨2, ![8192, 128]⟩
abbrev S8192x512 : Shape := ⟨2, ![8192, 512]⟩

abbrev nBuf : Space → Nat
  | .hbm => 16
  | .vmem => 8
  | .smem => 0
  | _ => 0

abbrev bufTy : (tb : Table) → Fin (tcTables nBuf tb) → BufTy
  | .hbm, ⟨0, _⟩ => ⟨S32768x256, .f32⟩
  | .hbm, ⟨1, _⟩ => ⟨S256x512, .f32⟩
  | .hbm, ⟨2, _⟩ => ⟨S512, .f32⟩
  | .hbm, ⟨3, _⟩ => ⟨S512x128, .f32⟩
  | .hbm, ⟨4, _⟩ => ⟨S128, .f32⟩
  | .hbm, ⟨5, _⟩ => ⟨S_, .f32⟩
  | .hbm, ⟨6, _⟩ => ⟨S1x512, .f32⟩
  | .hbm, ⟨7, _⟩ => ⟨S_, .i32⟩
  | .hbm, ⟨8, _⟩ => ⟨S1, .i32⟩
  | .hbm, ⟨9, _⟩ => ⟨S1x512, .f32⟩
  | .hbm, ⟨10, _⟩ => ⟨S_, .f32⟩
  | .hbm, ⟨11, _⟩ => ⟨S1x128, .f32⟩
  | .hbm, ⟨12, _⟩ => ⟨S_, .i32⟩
  | .hbm, ⟨13, _⟩ => ⟨S1, .i32⟩
  | .hbm, ⟨14, _⟩ => ⟨S1x128, .f32⟩
  | .hbm, ⟨15, _⟩ => ⟨S32768x128, .f32⟩
  | .local _ .vmem, ⟨0, _⟩ => ⟨S8192x256, .f32⟩
  | .local _ .vmem, ⟨1, _⟩ => ⟨S8192x256, .f32⟩
  | .local _ .vmem, ⟨2, _⟩ => ⟨S256x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S8192x128, .f32⟩
  | .local _ .vmem, ⟨7, _⟩ => ⟨S8192x128, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1x512 : S_.BroadcastsInDim S1x512 (![] : Fin 0 → Fin S1x512.rank)
  bcast_S_S1 : S_.BroadcastsInDim S1 (![] : Fin 0 → Fin S1.rank)
  bcast_S_S1x128 : S_.BroadcastsInDim S1x128 (![] : Fin 0 → Fin S1x128.rank)
  inb_S8192x256_S8192x256_0_0 : ∀ a, (![0, 0] : Fin 2 → Nat) a + S8192x256.size a ≤ S8192x256.size a
  h_S8192x256 : 0 < S8192x256.numel
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S8192x512 : S1x512.Broadcasts S8192x512
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  scatter_S1x512_S1_S512_0_0_0_0_wf : ScatterDims.WF S1x512 S1 S512 [0] [0] [0] 0
  scatter_S1x128_S1_S128_0_0_0_0_wf : ScatterDims.WF S1x128 S1 S128 [0] [0] [0] 0
  dot_S8192x256_S256x512_S8192x512_1_0_0_1_n_n_wf : DotDims.WF S8192x256 S256x512 S8192x512 [1] [0] [0] [1] [] []
  dot_S8192x512_S512x128_S8192x128_1_0_0_1_n_n_wf : DotDims.WF S8192x512 S512x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S32768x256.size a
  hwx0_0 : ∀ i : grid0.Coords, EltTy.bits .f32 = 32 ∨ (Rect.block (s := S32768x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S32768x128.size a
  hwx0_5 : ∀ i : grid0.Coords, EltTy.bits .f32 = 32 ∨ (Rect.block (s := S32768x128) S8192x128.size (cc0_transform_5 i) (hinb0_5 i)).WholeWords (EltTy.packing .f32)

variable [Facts₀]

def scatter_S1x512_S1_S512_0_0_0_0 : ScatterDims S1x512 S1 S512 where
  updateWindowDims := [0]
  insertedWindowDims := [0]
  scatterDimsToOperandDims := [0]
  indexVectorDim := 0
  wf := scatter_S1x512_S1_S512_0_0_0_0_wf
def scatter_S1x128_S1_S128_0_0_0_0 : ScatterDims S1x128 S1 S128 where
  updateWindowDims := [0]
  insertedWindowDims := [0]
  scatterDimsToOperandDims := [0]
  indexVectorDim := 0
  wf := scatter_S1x128_S1_S128_0_0_0_0_wf
def dot_S8192x256_S256x512_S8192x512_1_0_0_1_n_n : DotDims S8192x256 S256x512 S8192x512 where
  lhsContracting := [1]
  rhsContracting := [0]
  lhsNonContracting := [0]
  rhsNonContracting := [1]
  lhsBatch := []
  rhsBatch := []
  wf := dot_S8192x256_S256x512_S8192x512_1_0_0_1_n_n_wf
def dot_S8192x512_S512x128_S8192x128_1_0_0_1_n_n : DotDims S8192x512 S512x128 S8192x128 where
  lhsContracting := [1]
  rhsContracting := [0]
  lhsNonContracting := [0]
  rhsNonContracting := [1]
  lhsBatch := []
  rhsBatch := []
  wf := dot_S8192x512_S512x128_S8192x128_1_0_0_1_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x256 : Shape := ⟨2, ![32768, 256]⟩
abbrev S256x512 : Shape := ⟨2, ![256, 512]⟩
abbrev S512 : Shape := ⟨1, ![512]⟩
abbrev S512x128 : Shape := ⟨2, ![512, 128]⟩
abbrev S128 : Shape := ⟨1, ![128]⟩
abbrev S0 : Shape := ⟨1, ![0]⟩
abbrev S_ : Shape := ⟨0, ![]⟩
abbrev S1x512 : Shape := ⟨2, ![1, 512]⟩
abbrev S1 : Shape := ⟨1, ![1]⟩
abbrev S1x128 : Shape := ⟨2, ![1, 128]⟩
abbrev S32768x128 : Shape := ⟨2, ![32768, 128]⟩
abbrev S256x256 : Shape := ⟨2, ![256, 256]⟩
abbrev S256x128 : Shape := ⟨2, ![256, 128]⟩

abbrev nBuf : Space → Nat
  | .hbm => 28
  | .vmem => 8
  | .smem => 0
  | _ => 0

abbrev bufTy : (tb : Table) → Fin (tcTables nBuf tb) → BufTy
  | .hbm, ⟨0, _⟩ => ⟨S32768x256, .f32⟩
  | .hbm, ⟨1, _⟩ => ⟨S256x512, .f32⟩
  | .hbm, ⟨2, _⟩ => ⟨S512, .f32⟩
  | .hbm, ⟨3, _⟩ => ⟨S512x128, .f32⟩
  | .hbm, ⟨4, _⟩ => ⟨S128, .f32⟩
  | .hbm, ⟨5, _⟩ => ⟨S0, .i32⟩
  | .hbm, ⟨6, _⟩ => ⟨S0, .i32⟩
  | .hbm, ⟨7, _⟩ => ⟨S0, .i32⟩
  | .hbm, ⟨8, _⟩ => ⟨S_, .f32⟩
  | .hbm, ⟨9, _⟩ => ⟨S256x512, .f32⟩
  | .hbm, ⟨10, _⟩ => ⟨S256x512, .f32⟩
  | .hbm, ⟨11, _⟩ => ⟨S_, .f32⟩
  | .hbm, ⟨12, _⟩ => ⟨S1x512, .f32⟩
  | .hbm, ⟨13, _⟩ => ⟨S_, .i32⟩
  | .hbm, ⟨14, _⟩ => ⟨S1, .i32⟩
  | .hbm, ⟨15, _⟩ => ⟨S1x512, .f32⟩
  | .hbm, ⟨16, _⟩ => ⟨S_, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S1x128, .f32⟩
  | .hbm, ⟨21, _⟩ => ⟨S_, .i32⟩
  | .hbm, ⟨22, _⟩ => ⟨S1, .i32⟩
  | .hbm, ⟨23, _⟩ => ⟨S1x128, .f32⟩
  | .hbm, ⟨24, _⟩ => ⟨S_, .f32⟩
  | .hbm, ⟨25, _⟩ => ⟨S32768x256, .f32⟩
  | .hbm, ⟨26, _⟩ => ⟨S32768x256, .f32⟩
  | .hbm, ⟨27, _⟩ => ⟨S32768x128, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S1x512, .f32⟩
  | .local _ .vmem, ⟨4, _⟩ => ⟨S512x128, .f32⟩
  | .local _ .vmem, ⟨5, _⟩ => ⟨S1x128, .f32⟩
  | .local _ .vmem, ⟨6, _⟩ => ⟨S256x128, .f32⟩
  | .local _ .vmem, ⟨7, _⟩ => ⟨S256x128, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_2 : Ref sig .tc := ⟨.hbm, 11, rfl⟩
abbrev main_v2 : Ref sig .tc := ⟨.hbm, 12, rfl⟩
abbrev main_c_3 : Ref sig .tc := ⟨.hbm, 13, rfl⟩
abbrev main_v3 : Ref sig .tc := ⟨.hbm, 14, rfl⟩
abbrev main_v4 : Ref sig .tc := ⟨.hbm, 15, rfl⟩
abbrev main_cst_4 : Ref sig .tc := ⟨.hbm, 16, rfl⟩
abbrev main_v5 : Ref sig .tc := ⟨.hbm, 17, rfl⟩
abbrev main_v6 : Ref sig .tc := ⟨.hbm, 18, rfl⟩
abbrev main_cst_5 : Ref sig .tc := ⟨.hbm, 19, rfl⟩
abbrev main_v7 : Ref sig .tc := ⟨.hbm, 20, rfl⟩
abbrev main_c_6 : Ref sig .tc := ⟨.hbm, 21, rfl⟩
abbrev main_v8 : Ref sig .tc := ⟨.hbm, 22, rfl⟩
abbrev main_v9 : Ref sig .tc := ⟨.hbm, 23, rfl⟩
abbrev main_cst_7 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  hz_S0 : S0.numel = 0
  bcast_S_S256x512 : S_.BroadcastsInDim S256x512 (![] : Fin 0 → Fin S256x512.rank)
  bcast_S_S1x512 : S_.BroadcastsInDim S1x512 (![] : Fin 0 → Fin S1x512.rank)
  bcast_S_S1 : S_.BroadcastsInDim S1 (![] : Fin 0 → Fin S1.rank)
  bcast_S_S512x128 : S_.BroadcastsInDim S512x128 (![] : Fin 0 → Fin S512x128.rank)
  bcast_S_S1x128 : S_.BroadcastsInDim S1x128 (![] : Fin 0 → Fin S1x128.rank)
  bcast_S_S32768x256 : S_.BroadcastsInDim S32768x256 (![] : Fin 0 → Fin S32768x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  scatter_S256x512_S0_S256x512_01_n_n_0_wf : ScatterDims.WF S256x512 S0 S256x512 [0, 1] [] [] 0
  scatter_S1x512_S1_S512_0_0_0_0_wf : ScatterDims.WF S1x512 S1 S512 [0] [0] [0] 0
  scatter_S512x128_S0_S512x128_01_n_n_0_wf : ScatterDims.WF S512x128 S0 S512x128 [0, 1] [] [] 0
  scatter_S1x128_S1_S128_0_0_0_0_wf : ScatterDims.WF S1x128 S1 S128 [0] [0] [0] 0
  scatter_S32768x256_S0_S32768x256_01_n_n_0_wf : ScatterDims.WF S32768x256 S0 S32768x256 [0, 1] [] [] 0
  dot_S256x256_S256x512_S256x512_1_0_0_1_n_n_wf : DotDims.WF S256x256 S256x512 S256x512 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S32768x256.size a
  hwx0_0 : ∀ i : grid0.Coords, EltTy.bits .f32 = 32 ∨ (Rect.block (s := S32768x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S32768x128.size a
  hwx0_5 : ∀ i : grid0.Coords, EltTy.bits .f32 = 32 ∨ (Rect.block (s := S32768x128) S256x128.size (cc0_transform_5 i) (hinb0_5 i)).WholeWords (EltTy.packing .f32)

variable [Facts₀]

def scatter_S256x512_S0_S256x512_01_n_n_0 : ScatterDims S256x512 S0 S256x512 where
  updateWindowDims := [0, 1]
  insertedWindowDims := []
  scatterDimsToOperandDims := []
  indexVectorDim := 0
  wf := scatter_S256x512_S0_S256x512_01_n_n_0_wf
def scatter_S1x512_S1_S512_0_0_0_0 : ScatterDims S1x512 S1 S512 where
  updateWindowDims := [0]
  insertedWindowDims := [0]
  scatterDimsToOperandDims := [0]
  indexVectorDim := 0
  wf := scatter_S1x512_S1_S512_0_0_0_0_wf
def scatter_S512x128_S0_S512x128_01_n_n_0 : ScatterDims S512x128 S0 S512x128 where
  updateWindowDims := [0, 1]
  insertedWindowDims := []
  scatterDimsToOperandDims := []
  indexVectorDim := 0
  wf := scatter_S512x128_S0_S512x128_01_n_n_0_wf
def scatter_S1x128_S1_S128_0_0_0_0 : ScatterDims S1x128 S1 S128 where
  updateWindowDims := [0]
  insertedWindowDims := [0]
  scatterDimsToOperandDims := [0]
  indexVectorDim := 0
  wf := scatter_S1x128_S1_S128_0_0_0_0_wf
def scatter_S32768x256_S0_S32768x256_01_n_n_0 : ScatterDims S32768x256 S0 S32768x256 where
  updateWindowDims := [0, 1]
  insertedWindowDims := []
  scatterDimsToOperandDims := []
  indexVectorDim := 0
  wf := scatter_S32768x256_S0_S32768x256_01_n_n_0_wf
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_v11) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S256x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.Spec.lean ====
/-
  What both programs compute, as one function of the argument arrays, and a product of two matrices read at an entry.

  A two-layer perceptron over the rows of `x` (32768 rows of 256 features): hidden unit `k` of a row is
  `max (∑ a, x[r, a] · w1[a, k] + b1[k]) 0`, and output `j` of that row is `∑ k, hidden[k] · w2[k, j] + b2[j]`.
  Every sum runs over one fixed index type in one order, so the value of a row depends on that row of `x` alone:
  how the rows are grouped into blocks does not enter it, and no law of arithmetic is needed to compare two groupings.
-/
import Idealize.ShloMosaic.PureOps.Ideal
import Idealize.ShloMosaic.PureOps.Ideal.Laws
import Idealize.ShloMosaic.Lib.ValueIdx

noncomputable section

open scoped BigOperators

namespace Cert.Mlp

open Idealize.ShloMosaic Idealize.ShloMosaic.ValueIdx

/-- Hidden unit `k` of one row: the row's inner product with column `k` of `w1`, plus the bias, cut off below at the
    value of the zero word. -/
def hidden (xrow : Fin 256 → EReal) (w1 : (⟨2, ![256, 512]⟩ : Shape).Idx → EReal) (b1 : Fin 512 → EReal) (k : Fin 512) : EReal :=
  max ((∑ a : Fin 256, xrow a * w1 (ix2 a k)) + b1 k) (Ideal.ofBits .f32 0x00000000#32)

/-- Output `j` of one row: the hidden layer's inner product with column `j` of `w2`, plus the bias. -/
def outAt (xrow : Fin 256 → EReal) (w1 : (⟨2, ![256, 512]⟩ : Shape).Idx → EReal) (b1 : Fin 512 → EReal)
    (w2 : (⟨2, ![512, 128]⟩ : Shape).Idx → EReal) (b2 : Fin 128 → EReal) (j : Fin 128) : EReal :=
  (∑ k : Fin 512, hidden xrow w1 b1 k * w2 (ix2 k j)) + b2 j

/-- The whole result: entry `(r, j)` is output `j` of row `r` of `x`. -/
def G (x : (⟨2, ![32768, 256]⟩ : Shape).Idx → EReal) (w1 : (⟨2, ![256, 512]⟩ : Shape).Idx → EReal)
    (b1 : (⟨1, ![512]⟩ : Shape).Idx → EReal) (w2 : (⟨2, ![512, 128]⟩ : Shape).Idx → EReal)
    (b2 : (⟨1, ![128]⟩ : Shape).Idx → EReal) : (⟨2, ![32768, 128]⟩ : Shape).Idx → EReal :=
  fun i => outAt (fun a => x (ix2 (i 0) a)) w1 (fun k => b1 (ix1 k)) w2 (fun j => b2 (ix1 j)) (i 1)

/-- `G` at an entry given by its coordinates. -/
theorem G_ix2 (x : (⟨2, ![32768, 256]⟩ : Shape).Idx → EReal) (w1 : (⟨2, ![256, 512]⟩ : Shape).Idx → EReal)
    (b1 : (⟨1, ![512]⟩ : Shape).Idx → EReal) (w2 : (⟨2, ![512, 128]⟩ : Shape).Idx → EReal)
    (b2 : (⟨1, ![128]⟩ : Shape).Idx → EReal) (r : Fin 32768) (j : Fin 128) :
    G x w1 b1 w2 b2 (ix2 r j) = outAt (fun a => x (ix2 r a)) w1 (fun k => b1 (ix1 k)) w2 (fun j => b2 (ix1 j)) j := rfl

/-- Output `j` of a row depends only on the row, the two weight matrices and the two bias vectors. -/
theorem outAt_congr {xrow xrow' : Fin 256 → EReal} {w1 w1' : (⟨2, ![256, 512]⟩ : Shape).Idx → EReal} {b1 b1' : Fin 512 → EReal}
    {w2 w2' : (⟨2, ![512, 128]⟩ : Shape).Idx → EReal} {b2 b2' : Fin 128 → EReal}
    (hx : xrow = xrow') (h1 : w1 = w1') (hb1 : b1 = b1') (h2 : w2 = w2') (hb2 : b2 = b2') (j : Fin 128) :
    outAt xrow w1 b1 w2 b2 j = outAt xrow' w1' b1' w2' b2' j := by
  subst hx h1 hb1 h2 hb2; rfl

/-- A matrix product into a zero accumulator, read at entry `(p, q)`: the sum over the shared axis of the products
    of row `p` of the left factor with column `q` of the right one. The hypotheses say that the dimension numbers are
    those of a plain product (the left factor's second axis against the right factor's first, no batch axis): each is a
    computation on the record's lists. -/
theorem matmul_zero_ix2 {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (lhs : FVec Ideal ⟨2, ![M, K]⟩ φ₁) (rhs : FVec Ideal ⟨2, ![K, N]⟩ φ₂)
    (p : Fin M) (q : Fin N) :
    matmul D prec lhs rhs (constant ⟨2, ![M, N]⟩ .f32 0x00000000#32) (ix2 p q) = ∑ k : Fin K, lhs (ix2 p k) * rhs (ix2 k q) := by
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := by
    funext a
    match a with
    | ⟨0, _⟩ => exact Fin.ext (hl0 _ _)
    | ⟨1, _⟩ => exact Fin.ext ((hl1 _ _).trans hk)
  have er : D.rhsIdx (ix2 p q) ((contrEquiv1 D K hr hs).symm k) = ix2 k q := by
    funext a
    match a with
    | ⟨0, _⟩ => exact Fin.ext ((hr0 _ _).trans hk)
    | ⟨1, _⟩ => exact Fin.ext (hr1 _ _)
  rw [el, er]

end Cert.Mlp

end
-- ==== Proof.KernelBody.lean ====
/-
  The body of the kernel, read at one entry of its output block.

  At a grid point the body holds 8192 rows of `x`, all of `w1`, `w2` and the two bias rows. What it stores at entry
  `(p, q)` of its 8192 × 128 block is output `q` of the perceptron on row `p` of the block: each of the two matrix
  products is a sum over the shared axis, a bias row broadcast over the rows reads its one row, and the cut-off at zero
  acts entry by entry.
-/
import proofs.«116409_g2000500329576943_pallasbulk_122_22_alg».proof.Proof.Gen.KernelIdeal.Skeleton
import proofs.«116409_g2000500329576943_pallasbulk_122_22_alg».proof.Proof.Spec
import Idealize.ShloMosaic.Lib.ValueLayout
import Idealize.ShloMosaic.Lib.Pipeline.Value

noncomputable section

open scoped BigOperators

namespace Cert.KernelIdeal.Body

open Idealize.ShloMosaic Idealize.ShloMosaic.ValueIdx Cert.KernelIdeal Cert.KernelIdeal.Gen

/-- The first product, rows of the block against `w1`, at hidden unit `k` of row `p`. -/
theorem mm1_at (l : FVec Ideal S8192x256 .f32) (r : FVec Ideal S256x512 .f32) (p : Fin 8192) (k : Fin 512) :
    matmul dot_S8192x256_S256x512_S8192x512_1_0_0_1_n_n none l r (constant (F := Ideal) S8192x512 .f32 0x00000000#32) (ix2 p k)
      = ∑ a : Fin 256, l (ix2 p a) * r (ix2 a k) :=
  Cert.Mlp.matmul_zero_ix2 dot_S8192x256_S256x512_S8192x512_1_0_0_1_n_n rfl rfl (fun _ _ => rfl) (fun _ _ => rfl)
    (fun _ _ => rfl) (fun _ _ => rfl) none l r p k

/-- The second product, the hidden layer against `w2`, at output `q` of row `p`. -/
theorem mm2_at (l : FVec Ideal S8192x512 .f32) (r : FVec Ideal S512x128 .f32) (p : Fin 8192) (q : Fin 128) :
    matmul dot_S8192x512_S512x128_S8192x128_1_0_0_1_n_n none l r (constant (F := Ideal) S8192x128 .f32 0x00000000#32) (ix2 p q)
      = ∑ k : Fin 512, l (ix2 p k) * r (ix2 k q) :=
  Cert.Mlp.matmul_zero_ix2 dot_S8192x512_S512x128_S8192x128_1_0_0_1_n_n rfl rfl (fun _ _ => rfl) (fun _ _ => rfl)
    (fun _ _ => rfl) (fun _ _ => rfl) none l r p q

/-- What the body stores at entry `(p, q)` of its block: output `q` of the perceptron on row `p` of the loaded rows. -/
theorem pay_at (v0 : FVec Ideal S8192x256 .f32) (v1 : FVec Ideal S256x512 .f32) (v3 : FVec Ideal S1x512 .f32)
    (v9 : FVec Ideal S512x128 .f32) (v11 : FVec Ideal S1x128 .f32) (p : Fin 8192) (q : Fin 128) :
    k0_pay1 (F := Ideal) v0 v1 v3 v9 v11 (ix2 p q)
      = Cert.Mlp.outAt (fun a => v0 (ix2 p a)) v1 (fun k => v3 (ix2 (0 : Fin 1) k)) v9 (fun j => v11 (ix2 (0 : Fin 1) j)) q := by
  unfold k0_pay1 Cert.Mlp.outAt Cert.Mlp.hidden
  simp only [addf_apply, shapeCast_self, broadcastTo_1b_ab_apply, mm2_at, maximumf_apply, mm1_at, broadcast_apply]
  rfl

end Cert.KernelIdeal.Body

end
-- ==== Proof.KernelBlocks.lean ====
/-
  The blocks of the kernel's windows, read as pieces of the arrays.

  The grid has four points. At point `t` the output window's block is rows `8192 · n` to `8192 · n + 8191` of the result,
  `n` the block number the index map gives `t`, and the window of `x` has the same rows of `x`; the windows of `w1` and
  `w2` are the whole arrays at every point. The four output blocks are disjoint runs of rows that fill the result.
-/
import proofs.«116409_g2000500329576943_pallasbulk_122_22_alg».proof.Proof.Gen.KernelIdeal.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The zero offsets of a whole-buffer access, as the constant function. -/
theorem hz : (![0, 0] : Fin 2 → Nat) = fun _ => 0 := funext fun a => by fin_cases a <;> rfl

/-- The index maps over the four grid points: the window of `x` moves with the output window along the rows and
    both stay at column block 0; the windows of `w1`, `w2` and the bias rows stay at block (0, 0); the output's row
    block number is at most 3. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 3 :=
  (by decide +kernel : ∀ t : Fin grid0.N, _)

/-- Every row block number below 4 is some point's. -/
theorem idx_onto : ∀ n : Fin 4, ∃ t : Fin cfg0.N, win0_5.index t (0 : Fin 2) = n.val :=
  (by decide +kernel : ∀ n : Fin 4, ∃ t : Fin grid0.N, win0_5.index t (0 : Fin 2) = n.val)

/-- Entry `(p, q)` of the output block at point `t` is entry `(r, q)` of the result, `r` the block's first row plus `p`. -/
theorem emb5_eq (t : Fin cfg0.N) (p : Fin 8192) (q : Fin 128) (r : Fin 32768)
    (hr : r.val = win0_5.index t (0 : Fin 2) * 8192 + p.val) :
    ((cfg0.win 5).blk t).view.emb (ix2 p q) = ix2 r q := by
  obtain ⟨e0, e1, e2, e3, e4, e5, e6, e7, e8, e9, e10, e11⟩ := idx_facts t
  funext a; apply Fin.ext
  match a with
  | ⟨0, _⟩ => show win0_5.index t (0 : Fin 2) * 8192 + 1 * p.val = r.val; omega
  | ⟨1, _⟩ => show win0_5.index t (1 : Fin 2) * 128 + 1 * q.val = q.val; omega

/-- Row `p` of the block of `x` at point `t` is row `r` of `x` as launched, `r` the output block's first row plus `p`. -/
theorem blk0_at (c : Dev nD) (t : Fin cfg0.N) (p : Fin 8192) (a : Fin 256) (r : Fin 32768)
    (hr : r.val = win0_5.index t (0 : Fin 2) * 8192 + p.val) :
    iblk m c 0 t (ix2 p a) = m ((c : Thread nD τ).loc main_arg0) (ix2 r a) := by
  obtain ⟨e0, e1, e2, e3, e4, e5, e6, e7, e8, e9, e10, e11⟩ := idx_facts t
  rw [← V_main_arg0 m c]
  show V m c main_arg0 (((cfg0.win 0).blk t).view.emb (ix2 p a)) = V m c main_arg0 (ix2 r a)
  refine congrArg (V m c main_arg0) ?_
  funext ax; apply Fin.ext
  match ax with
  | ⟨0, _⟩ => show win0_0.index t (0 : Fin 2) * 8192 + 1 * p.val = r.val; omega
  | ⟨1, _⟩ => show win0_0.index t (1 : Fin 2) * 256 + 1 * a.val = a.val; omega

/-- The block of `w1` at every point is `w1` as launched. -/
theorem blk1_eq (c : Dev nD) (t : Fin cfg0.N) :
    iblk m c 1 t = m ((c : Thread nD τ).loc main_arg1) := by
  obtain ⟨e0, e1, e2, e3, e4, e5, e6, e7, e8, e9, e10, e11⟩ := idx_facts t
  rw [← V_main_arg1 m c]
  funext y
  show V m c main_arg1 (((cfg0.win 1).blk t).view.emb y) = V m c main_arg1 y
  refine congrArg (V m c main_arg1) ?_
  funext ax; apply Fin.ext
  match ax with
  | ⟨0, _⟩ => show win0_1.index t (0 : Fin 2) * 256 + 1 * (y 0).val = (y 0).val; omega
  | ⟨1, _⟩ => show win0_1.index t (1 : Fin 2) * 512 + 1 * (y 1).val = (y 1).val; omega

/-- The block of `w2` at every point is `w2` as launched. -/
theorem blk3_eq (c : Dev nD) (t : Fin cfg0.N) :
    iblk m c 3 t = m ((c : Thread nD τ).loc main_arg3) := by
  obtain ⟨e0, e1, e2, e3, e4, e5, e6, e7, e8, e9, e10, e11⟩ := idx_facts t
  rw [← V_main_arg3 m c]
  funext y
  show V m c main_arg3 (((cfg0.win 3).blk t).view.emb y) = V m c main_arg3 y
  refine congrArg (V m c main_arg3) ?_
  funext ax; apply Fin.ext
  match ax with
  | ⟨0, _⟩ => show win0_3.index t (0 : Fin 2) * 512 + 1 * (y 0).val = (y 0).val; omega
  | ⟨1, _⟩ => show win0_3.index t (1 : Fin 2) * 128 + 1 * (y 1).val = (y 1).val; omega

/-- The block of the first bias row at every point is the whole one-row array the region finds. -/
theorem blk2_at (c : Dev nD) (t : Fin cfg0.N) (k : Fin 512) :
    iblk m c 2 t (ix2 (0 : Fin 1) k) = V m c main_v2 (ix2 (0 : Fin 1) k) := by
  obtain ⟨e0, e1, e2, e3, e4, e5, e6, e7, e8, e9, e10, e11⟩ := idx_facts t
  show V m c main_v2 (((cfg0.win 2).blk t).view.emb (ix2 (0 : Fin 1) k)) = V m c main_v2 (ix2 (0 : Fin 1) k)
  refine congrArg (V m c main_v2) ?_
  funext ax; apply Fin.ext
  match ax with
  | ⟨0, _⟩ => show win0_2.index t (0 : Fin 2) * 1 + 1 * 0 = 0; omega
  | ⟨1, _⟩ => show win0_2.index t (1 : Fin 2) * 512 + 1 * k.val = k.val; omega

/-- The block of the second bias row at every point is the whole one-row array the region finds. -/
theorem blk4_at (c : Dev nD) (t : Fin cfg0.N) (j : Fin 128) :
    iblk m c 4 t (ix2 (0 : Fin 1) j) = V m c main_v5 (ix2 (0 : Fin 1) j) := by
  obtain ⟨e0, e1, e2, e3, e4, e5, e6, e7, e8, e9, e10, e11⟩ := idx_facts t
  show V m c main_v5 (((cfg0.win 4).blk t).view.emb (ix2 (0 : Fin 1) j)) = V m c main_v5 (ix2 (0 : Fin 1) j)
  refine congrArg (V m c main_v5) ?_
  funext ax; apply Fin.ext
  match ax with
  | ⟨0, _⟩ => show win0_4.index t (0 : Fin 2) * 1 + 1 * 0 = 0; omega
  | ⟨1, _⟩ => show win0_4.index t (1 : Fin 2) * 128 + 1 * j.val = j.val; omega

/-- An entry of the result is in the output block at point `t` iff each coordinate is in the block's range on its axis. -/
theorem mem_blk5 (t : Fin cfg0.N) (i : S32768x128.Idx) :
    i ∈ ((cfg0.win 5).blk t).view.set ↔ ∀ a : Fin 2, win0_5.index t a * S8192x128.size a ≤ (i a).val ∧ (i a).val < win0_5.index t a * S8192x128.size a + S8192x128.size a := by
  show i ∈ ((View.whole main_v6).slice (win0_5.rect t)).set ↔ _
  rw [View.set_slice_whole, Rect.mem_set_unit]
  exact Iff.rfl

/-- Every entry of the result is in the output block of some point: the point whose block number is the entry's row
    divided by 8192. -/
theorem cover5 (i : S32768x128.Idx) : ∃ t : Fin cfg0.N, (cfg0.win 5).flush t = true ∧ i ∈ ((cfg0.win 5).blk t).view.set := by
  have hi0 : (i 0).val < 32768 := (i 0).isLt
  have hi1 : (i 1).val < 128 := (i 1).isLt
  obtain ⟨t, ht⟩ := idx_onto ⟨(i 0).val / 8192, by omega⟩
  have q0 : win0_5.index t (0 : Fin 2) = (i 0).val / 8192 := ht
  obtain ⟨e0, e1, e2, e3, e4, e5, e6, e7, e8, e9, e10, e11⟩ := idx_facts t
  refine ⟨t, flush0_5 t, ?_⟩
  rw [mem_blk5]
  intro a
  match a with
  | ⟨0, _⟩ => show win0_5.index t (0 : Fin 2) * 8192 ≤ (i 0).val ∧ (i 0).val < win0_5.index t (0 : Fin 2) * 8192 + 8192; omega
  | ⟨1, _⟩ => show win0_5.index t (1 : Fin 2) * 128 ≤ (i 1).val ∧ (i 1).val < win0_5.index t (1 : Fin 2) * 128 + 128; omega

end Cert.KernelIdeal.Blocks

end
-- ==== Proof.LibScatterSet.lean ====
/-
  General facts about the host scatter whose combiner keeps the update ("set"):
  the scatter is a left fold, in row-major order of the update indices, of the step that
  writes update element `j` at its result index when that index is inside the operand.
  With the set combiner the value left at a result index is the update of the LAST update
  index landing there, and the operand's own element where no update index lands.
-/
import Idealize.ShloMosaic.PureOps.Ideal
import Idealize.ShloMosaic.Lib.ValueIdx

noncomputable section

open Idealize.ShloMosaic

namespace Cert.LibScatterSet

variable {s si u : Shape} {α : Type} {w : Nat}

/-- One step of the set scatter's fold: update index number `n` (row-major) overwrites the
    element at its result index, when it has one. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

/-- The set scatter is the left fold of `step` over the update indices in row-major order. -/
theorem scatter_eq_foldl (d : ScatterDims s si u) (x : s.Idx → α) (idx : IVec si w) (upd : u.Idx → α) :
    Host.scatter d (fun _ b => b) x idx upd = (List.finRange u.numel).foldl (step d idx upd) x := rfl

/-- A step whose update index lands at `i` leaves that update's element at `i`. -/
theorem step_hit (d : ScatterDims s si u) (idx : IVec si w) (upd : u.Idx → α) (r : s.Idx → α) (n : Fin u.numel)
    (i : s.Idx) (h : d.resultIdx? (u.rowMajor.symm n) idx = some i) :
    step d idx upd r n i = upd (u.rowMajor.symm n) := by
  unfold step; rw [h]; exact if_pos rfl

/-- A step whose update index does not land at `i` leaves the element at `i` as it was. -/
theorem step_miss (d : ScatterDims s si u) (idx : IVec si w) (upd : u.Idx → α) (r : s.Idx → α) (n : Fin u.numel)
    (i : s.Idx) (h : d.resultIdx? (u.rowMajor.symm n) idx ≠ some i) :
    step d idx upd r n i = r i := by
  unfold step
  cases hr : d.resultIdx? (u.rowMajor.symm n) idx with
  | none => rfl
  | some i0 =>
    have hne : i ≠ i0 := fun e => h (by rw [hr, e])
    exact if_neg hne

/-- Folding the steps of a list of update indices none of which lands at `i` leaves the
    element at `i` as it was. -/
theorem foldl_miss (d : ScatterDims s si u) (idx : IVec si w) (upd : u.Idx → α) (i : s.Idx)
    (l : List (Fin u.numel)) (r : s.Idx → α)
    (h : ∀ n ∈ l, d.resultIdx? (u.rowMajor.symm n) idx ≠ some i) :
    l.foldl (step d idx upd) r i = r i := by
  induction l generalizing r with
  | nil => rfl
  | cons m l ih =>
    rw [List.foldl_cons, ih _ (fun n hn => h n (List.mem_cons_of_mem _ hn))]
    exact step_miss d idx upd r m i (h m (List.mem_cons_self ..))

/-- Folding the steps of a list of update indices of which exactly one, `n`, lands at `i`
    leaves `n`'s update element at `i`. -/
theorem foldl_hit (d : ScatterDims s si u) (idx : IVec si w) (upd : u.Idx → α) (i : s.Idx) (n : Fin u.numel)
    (hn : d.resultIdx? (u.rowMajor.symm n) idx = some i)
    (l : List (Fin u.numel)) (r : s.Idx → α) (hmem : n ∈ l)
    (huniq : ∀ m ∈ l, d.resultIdx? (u.rowMajor.symm m) idx = some i → m = n) :
    l.foldl (step d idx upd) r i = upd (u.rowMajor.symm n) := by
  induction l generalizing r with
  | nil => exact absurd hmem (List.not_mem_nil)
  | cons m l ih =>
    rw [List.foldl_cons]
    by_cases hl : n ∈ l
    · exact ih _ hl (fun m' hm' => huniq m' (List.mem_cons_of_mem _ hm'))
    · have hmn : n = m := by
        rcases List.mem_cons.1 hmem with h | h
        · exact h
        · exact absurd h hl
      subst hmn
      rw [foldl_miss d idx upd i l _ (fun m' hm' e => hl (huniq m' (List.mem_cons_of_mem _ hm') e ▸ hm'))]
      exact step_hit d idx upd r n i hn

/-- SET scatter, an index that is written: when update index `j` lands at `i` and is the only
    update index landing there, the result holds `upd j` at `i`. -/
theorem scatter_set_hit_of_unique (d : ScatterDims s si u) (x : s.Idx → α) (idx : IVec si w) (upd : u.Idx → α)
    (j : u.Idx) (i : s.Idx) (hj : d.resultIdx? j idx = some i)
    (huniq : ∀ j', d.resultIdx? j' idx = some i → j' = j) :
    Host.scatter d (fun _ b => b) x idx upd i = upd j := by
  rw [scatter_eq_foldl]
  have hs : u.rowMajor.symm (u.rowMajor j) = j := u.rowMajor.symm_apply_apply j
  have := foldl_hit d idx upd i (u.rowMajor j) (by rw [hs]; exact hj) (List.finRange u.numel) x
    (List.mem_finRange _) (fun m _ hm => by
      have := huniq _ hm
      rw [← this]; exact (u.rowMajor.apply_symm_apply m).symm)
  rw [this, hs]

/-- SET scatter, an index that is written: when the result index is injective on the update
    indices that land inside the operand and update index `j` lands at `i`, the result holds
    `upd j` at `i`. -/
theorem scatter_set_hit (d : ScatterDims s si u) (x : s.Idx → α) (idx : IVec si w) (upd : u.Idx → α)
    (hinj : ∀ j j' i, d.resultIdx? j idx = some i → d.resultIdx? j' idx = some i → j = j')
    (j : u.Idx) (i : s.Idx) (hj : d.resultIdx? j idx = some i) :
    Host.scatter d (fun _ b => b) x idx upd i = upd j :=
  scatter_set_hit_of_unique d x idx upd j i hj (fun j' hj' => hinj j' j i hj' hj)

/-- SET scatter, an index that is not written: when no update index lands at `i`, the result
    holds the operand's element at `i`. -/
theorem scatter_set_miss (d : ScatterDims s si u) (x : s.Idx → α) (idx : IVec si w) (upd : u.Idx → α)
    (i : s.Idx) (hmiss : ∀ j, d.resultIdx? j idx ≠ some i) :
    Host.scatter d (fun _ b => b) x idx upd i = x i := by
  rw [scatter_eq_foldl]
  exact foldl_miss d idx upd i _ x (fun n _ => hmiss _)

/-! ## The whole-array set: no scatter index, the update window is the whole operand -/

/-- With no scatter-dims-to-operand-dims entry every window starts at `0` on both axes. -/
theorem whole_start (sz : Fin 2 → Nat) {w : Nat} (d : ScatterDims ⟨2, sz⟩ ⟨1, ![0]⟩ ⟨2, sz⟩)
    (hsd : d.scatterDimsToOperandDims = []) (j : (⟨2, sz⟩ : Shape).Idx) (idx : IVec ⟨1, ![0]⟩ w) (a : Fin 2) :
    d.start j idx a = 0 := by
  unfold ScatterDims.start
  rw [dif_neg]
  rw [hsd]; exact List.not_mem_nil

/-- With both update axes window axes and no inserted axis, the window coordinate on an operand
    axis is the update index's coordinate on the same axis. -/
theorem whole_window (sz : Fin 2 → Nat) (d : ScatterDims ⟨2, sz⟩ ⟨1, ![0]⟩ ⟨2, sz⟩)
    (huw : d.updateWindowDims = [0, 1]) (hiw : d.insertedWindowDims = [])
    (j : (⟨2, sz⟩ : Shape).Idx) (a : Fin 2) :
    d.window j a = (j a).val := by
  obtain ⟨uw, iw, sd, iv, wf⟩ := d
  dsimp only at huw hiw
  subst huw hiw
  fin_cases a
  · rfl
  · rfl

/-- The whole-array set: every update index lands at itself. -/
theorem whole_resultIdx (sz : Fin 2 → Nat) {w : Nat} (d : ScatterDims ⟨2, sz⟩ ⟨1, ![0]⟩ ⟨2, sz⟩)
    (huw : d.updateWindowDims = [0, 1]) (hiw : d.insertedWindowDims = [])
    (hsd : d.scatterDimsToOperandDims = [])
    (j : (⟨2, sz⟩ : Shape).Idx) (idx : IVec ⟨1, ![0]⟩ w) :
    d.resultIdx? j idx = some j := by
  have hsum : ∀ a : Fin 2, d.start j idx a + (d.window j a : Int) = ((j a).val : Int) := by
    intro a; rw [whole_start sz d hsd j idx a, whole_window sz d huw hiw j a, Int.zero_add]
  unfold ScatterDims.resultIdx?
  rw [dif_pos]
  · congr 1
    funext a
    apply Fin.ext
    show (d.start j idx a + (d.window j a : Int)).toNat = (j a).val
    rw [hsum a]; exact Int.toNat_natCast _
  · intro a
    rw [hsum a]
    have := (j a).isLt
    constructor
    · exact Int.natCast_nonneg _
    · exact_mod_cast this

/-- The whole-array set: scattering updates of the operand's own shape with the window the
    whole operand and no scatter index writes every element, so the result is the updates. -/
theorem scatter_set_whole (sz : Fin 2 → Nat) {α : Type} {w : Nat} (d : ScatterDims ⟨2, sz⟩ ⟨1, ![0]⟩ ⟨2, sz⟩)
    (huw : d.updateWindowDims = [0, 1]) (hiw : d.insertedWindowDims = [])
    (hsd : d.scatterDimsToOperandDims = [])
    (x : (⟨2, sz⟩ : Shape).Idx → α) (idx : IVec ⟨1, ![0]⟩ w) (upd : (⟨2, sz⟩ : Shape).Idx → α) :
    Host.scatter d (fun _ b => b) x idx upd = upd := by
  funext i
  refine scatter_set_hit_of_unique d x idx upd i i (whole_resultIdx sz d huw hiw hsd i idx) ?_
  intro j' hj'
  rw [whole_resultIdx sz d huw hiw hsd j' idx] at hj'
  exact Option.some.inj hj'

/-! ## The row set: a length-`n` update written as the one row of a `1 × n` operand -/

/-- The row set's scatter dimension numbers send every start to `0` when every scatter index
    word is `0`: on a mapped axis the start is the word read signed, `0`; elsewhere it is `0`
    by definition. (Any shapes, any width.) -/
theorem start_eq_zero_of_idx_zero {s si u : Shape} {w : Nat} (d : ScatterDims s si u) (j : u.Idx) (idx : IVec si w)
    (hidx : ∀ k, idx k = 0#w) (a : Fin s.rank) : d.start j idx a = 0 := by
  unfold ScatterDims.start
  split
  · rw [hidx]; exact BitVec.toInt_zero
  · rfl

/-- The row set: operand axis 0 is inserted (window coordinate `0`), operand axis 1 carries the
    update's one coordinate. -/
theorem row_window (n : Nat) (d : ScatterDims ⟨2, ![1, n]⟩ ⟨1, ![1]⟩ ⟨1, ![n]⟩)
    (huw : d.updateWindowDims = [0]) (hiw : d.insertedWindowDims = [0])
    (j : (⟨1, ![n]⟩ : Shape).Idx) :
    d.window j 0 = 0 ∧ d.window j 1 = (j 0).val := by
  obtain ⟨uw, iw, sd, iv, wf⟩ := d
  dsimp only at huw hiw
  subst huw hiw
  exact ⟨rfl, rfl⟩

/-- The row set: update index `j` lands in row `0` at column `j 0`. -/
theorem row_resultIdx (n : Nat) {w : Nat} (d : ScatterDims ⟨2, ![1, n]⟩ ⟨1, ![1]⟩ ⟨1, ![n]⟩)
    (huw : d.updateWindowDims = [0]) (hiw : d.insertedWindowDims = [0])
    (j : (⟨1, ![n]⟩ : Shape).Idx) (idx : IVec ⟨1, ![1]⟩ w) (hidx : ∀ k, idx k = 0#w) :
    d.resultIdx? j idx = some (ValueIdx.ix2 (n0 := 1) (n1 := n) 0 (j 0)) := by
  have hj : (j 0).val < n := (j 0).isLt
  have hsum0 : d.start j idx 0 + (d.window j 0 : Int) = 0 := by
    rw [start_eq_zero_of_idx_zero d j idx hidx, (row_window n d huw hiw j).1]; rfl
  have hsum1 : d.start j idx 1 + (d.window j 1 : Int) = ((j 0).val : Int) := by
    rw [start_eq_zero_of_idx_zero d j idx hidx, (row_window n d huw hiw j).2, Int.zero_add]
  unfold ScatterDims.resultIdx?
  rw [dif_pos]
  · congr 1
    funext a
    apply Fin.ext
    fin_cases a
    · show (d.start j idx 0 + (d.window j 0 : Int)).toNat = 0
      rw [hsum0]; rfl
    · show (d.start j idx 1 + (d.window j 1 : Int)).toNat = (j 0).val
      rw [hsum1]; exact Int.toNat_natCast _
  · intro a
    fin_cases a
    · show 0 ≤ d.start j idx 0 + (d.window j 0 : Int) ∧ d.start j idx 0 + (d.window j 0 : Int) < ((1 : Nat) : Int)
      rw [hsum0]; exact ⟨le_refl _, by decide⟩
    · show 0 ≤ d.start j idx 1 + (d.window j 1 : Int) ∧ d.start j idx 1 + (d.window j 1 : Int) < ((n : Nat) : Int)
      rw [hsum1]; exact ⟨Int.natCast_nonneg _, by exact_mod_cast hj⟩

/-- The row set: scattering a length-`n` update at the single scatter index `0` into a `1 × n`
    operand, the operand's row axis inserted, writes the whole row: element `(0, c)` of the
    result is update element `c`. -/
theorem scatter_set_row (n : Nat) {α : Type} {w : Nat} (d : ScatterDims ⟨2, ![1, n]⟩ ⟨1, ![1]⟩ ⟨1, ![n]⟩)
    (huw : d.updateWindowDims = [0]) (hiw : d.insertedWindowDims = [0])
    (x : (⟨2, ![1, n]⟩ : Shape).Idx → α) (idx : IVec ⟨1, ![1]⟩ w) (hidx : ∀ k, idx k = 0#w)
    (upd : (⟨1, ![n]⟩ : Shape).Idx → α) :
    Host.scatter d (fun _ b => b) x idx upd = fun i => upd (ValueIdx.ix1 (n := n) (i 1)) := by
  funext i
  have hi : ValueIdx.ix2 (n0 := 1) (n1 := n) 0 (i 1) = i := by
    funext a
    fin_cases a
    · exact Subsingleton.elim (α := Fin 1) _ _
    · rfl
  refine scatter_set_hit_of_unique d x idx upd (ValueIdx.ix1 (n := n) (i 1)) i ?_ ?_
  · rw [row_resultIdx n d huw hiw _ idx hidx]
    exact congrArg some hi
  · intro j' hj'
    rw [row_resultIdx n d huw hiw j' idx hidx] at hj'
    have h := Option.some.inj hj'
    have h1 : j' 0 = i 1 := congrFun h 1
    funext a
    fin_cases a
    exact h1

end Cert.LibScatterSet
-- ==== Proof.KernelBias.lean ====
/-
  The two bias rows as the kernel's region finds them.

  Before the call the program writes each bias vector as the one row of a zero-filled one-row array: a set of row 0,
  which overwrites every entry of that row. So entry `(0, k)` of the array the window stages is entry `k` of the bias
  vector as launched, and nothing of the zero fill is left.
-/
import proofs.«116409_g2000500329576943_pallasbulk_122_22_alg».proof.Proof.Gen.KernelIdeal.Value
import proofs.«116409_g2000500329576943_pallasbulk_122_22_alg».proof.Proof.LibScatterSet
import Idealize.ShloMosaic.Lib.ValueIdx
import Idealize.ShloMosaic.Lib.ValueLayout
import Idealize.ShloMosaic.Lib.StableHlo.Run

noncomputable section

namespace Cert.KernelIdeal.Bias

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The scatter index both sets use is the single word 0. -/
theorem idx_zero (k : S1.Idx) : broadcastInDim S1 ![] bcast_S_S1 (constantI S_ 32 0#32) k = 0#32 := rfl

/-- The first bias row at region entry: entry `(0, k)` is entry `k` of the launched `b1`. -/
theorem v2_at (c : Dev nD) (k : Fin 512) :
    (V m c main_v2 : S1x512.Idx → EReal) (ix2 (0 : Fin 1) k) = m ((c : Thread nD τ).loc main_arg2) (ix1 k) := by
  have e : (V m c main_v2 : S1x512.Idx → EReal)
      = Host.scatter scatter_S1x512_S1_S512_0_0_0_0 (fun _ b => b)
          (broadcastInDim S1x512 ![] bcast_S_S1x512 (constant (F := Ideal) S_ .f32 0x00000000#32))
          (broadcastInDim S1 ![] bcast_S_S1 (constantI S_ 32 0#32)) (m ((c : Thread nD τ).loc main_arg2)) := by
    dsimp only [V, hostOps0]; after_results
  rw [e, Cert.LibScatterSet.scatter_set_row 512 scatter_S1x512_S1_S512_0_0_0_0 rfl rfl _ _ idx_zero]

/-- The second bias row at region entry: entry `(0, j)` is entry `j` of the launched `b2`. -/
theorem v5_at (c : Dev nD) (j : Fin 128) :
    (V m c main_v5 : S1x128.Idx → EReal) (ix2 (0 : Fin 1) j) = m ((c : Thread nD τ).loc main_arg4) (ix1 j) := by
  have e : (V m c main_v5 : S1x128.Idx → EReal)
      = Host.scatter scatter_S1x128_S1_S128_0_0_0_0 (fun _ b => b)
          (broadcastInDim S1x128 ![] bcast_S_S1x128 (constant (F := Ideal) S_ .f32 0x00000000#32))
          (broadcastInDim S1 ![] bcast_S_S1 (constantI S_ 32 0#32)) (m ((c : Thread nD τ).loc main_arg4)) := by
    dsimp only [V, hostOps0]; after_results
  rw [e, Cert.LibScatterSet.scatter_set_row 128 scatter_S1x128_S1_S128_0_0_0_0 rfl rfl _ _ idx_zero]

end Cert.KernelIdeal.Bias

end
-- ==== Proof.KernelValue.lean ====
/-
  The kernel's result array after the run.

  At grid point `t` the body's stores leave in the output block, at entry `(p, q)`, output `q` of the perceptron on row
  `p` of the block of `x`; that row is row `8192 · n + p` of `x`, `n` the point's block number, and entry `(p, q)` of the
  block is entry `(8192 · n + p, q)` of the result. So each point writes back its block of the one function `G` of the
  launched arrays, and since the four blocks fill the result, the result is `G`.
-/
import proofs.«116409_g2000500329576943_pallasbulk_122_22_alg».proof.Proof.Gen.KernelIdeal.Value
import proofs.«116409_g2000500329576943_pallasbulk_122_22_alg».proof.Proof.Spec
import proofs.«116409_g2000500329576943_pallasbulk_122_22_alg».proof.Proof.KernelBody
import proofs.«116409_g2000500329576943_pallasbulk_122_22_alg».proof.Proof.KernelBlocks
import proofs.«116409_g2000500329576943_pallasbulk_122_22_alg».proof.Proof.KernelBias
import Idealize.ShloMosaic.Lib.Pipeline.Value

noncomputable section

namespace Cert.KernelIdeal.Result

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The perceptron of the arrays core `c` was launched with. -/
abbrev Gm (c : Dev nD) : S32768x128.Idx → EReal :=
  Cert.Mlp.G (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is its block of `G` of the launched arrays. -/
theorem flushed_eq (c : Dev nD) (t : Fin cfg0.N) :
    (dats m 0 c).flushed 5 t = ((cfg0.win 5).blk t).view.read (Elt Ideal) (Gm m c) := by
  rw [Cert.KernelIdeal.Value.flushed5]
  unfold out0_5
  rw [View.canon_unit_zero Blocks.hz]
  simp only [View.ld_unit_zero (S := S8192x256) Blocks.hz, View.ld_unit_zero (S := S256x512) Blocks.hz,
    View.ld_unit_zero (S := S1x512) Blocks.hz, View.ld_unit_zero (S := S512x128) Blocks.hz,
    View.ld_unit_zero (S := S1x128) Blocks.hz]
  funext y
  obtain ⟨p, q, rfl⟩ : ∃ (p : Fin 8192) (q : Fin 128), y = ix2 p q := ⟨y 0, y 1, eq_ix2 y⟩
  have hn : win0_5.index t (0 : Fin 2) ≤ 3 := (Blocks.idx_facts t).2.2.2.2.2.2.2.2.2.2.2
  have hp : p.val < 8192 := p.isLt
  have e5 := Blocks.emb5_eq t p q ⟨win0_5.index t (0 : Fin 2) * 8192 + p.val, by omega⟩ rfl
  show k0_pay1 (iblk m c 0 t) (iblk m c 1 t) (iblk m c 2 t) (iblk m c 3 t) (iblk m c 4 t) (ix2 p q)
    = Gm m c (((cfg0.win 5).blk t).view.emb (ix2 p q))
  rw [e5]
  refine (Body.pay_at _ _ _ _ _ p q).trans ?_
  refine Eq.trans ?_ (Cert.Mlp.G_ix2 _ _ _ _ _ _ q).symm
  exact Cert.Mlp.outAt_congr
    (funext fun a => Blocks.blk0_at m c t p a _ rfl)
    (Blocks.blk1_eq m c t)
    (funext fun k => (Blocks.blk2_at m c t k).trans (Bias.v2_at m c k))
    (Blocks.blk3_eq m c t)
    (funext fun j => (Blocks.blk4_at m c t j).trans (Bias.v5_at m c j))
    q

/-- The result array after the run is `G` of the launched arrays: the points' blocks fill it. -/
theorem final (c : Dev nD) : (dats m 0 c).arrAt 5 cfg0.N = Gm m c :=
  (dats m 0 c).arrAt_eq_of_cover 5 (Gm m c) (fun t _ => flushed_eq m c t) Blocks.cover5

/-- The run: every weakly fair execution ends with the result at `G` of the launched arrays and the arguments unchanged. -/
theorem run : θ_run defs (onTc (τ := τ) (main (F := Ideal))) ⟨m, fun _ => 0, ρ⟩ fun r => ∀ c : Dev nD,
      r.2.mem ((c : Thread nD τ).loc main_v6) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Result

end
-- ==== Proof.RefBody.lean ====
/-
  The body of the reference's kernel, read at one entry of its output block.

  It is the same perceptron on 256 rows at a time: what it stores at entry `(p, q)` of its 256 × 128 block is output
  `q` of the perceptron on row `p` of the block. The casts of a block to its own shape change nothing.
-/
import proofs.«116409_g2000500329576943_pallasbulk_122_22_alg».proof.Proof.Gen.ReferenceIdeal.Skeleton
import proofs.«116409_g2000500329576943_pallasbulk_122_22_alg».proof.Proof.Spec
import Idealize.ShloMosaic.Lib.ValueLayout
import Idealize.ShloMosaic.Lib.Pipeline.Value

noncomputable section

open scoped BigOperators

namespace Cert.ReferenceIdeal.Body

open Idealize.ShloMosaic Idealize.ShloMosaic.ValueIdx Cert.ReferenceIdeal Cert.ReferenceIdeal.Gen

/-- The first product, rows of the block against `w1`, at hidden unit `k` of row `p`. -/
theorem mm1_at (l : FVec Ideal S256x256 .f32) (r : FVec Ideal S256x512 .f32) (p : Fin 256) (k : Fin 512) :
    matmul dot_S256x256_S256x512_S256x512_1_0_0_1_n_n none l r (constant (F := Ideal) S256x512 .f32 0x00000000#32) (ix2 p k)
      = ∑ a : Fin 256, l (ix2 p a) * r (ix2 a k) :=
  Cert.Mlp.matmul_zero_ix2 dot_S256x256_S256x512_S256x512_1_0_0_1_n_n rfl rfl (fun _ _ => rfl) (fun _ _ => rfl)
    (fun _ _ => rfl) (fun _ _ => rfl) none l r p k

/-- The second product, the hidden layer against `w2`, at output `q` of row `p`. -/
theorem mm2_at (l : FVec Ideal S256x512 .f32) (r : FVec Ideal S512x128 .f32) (p : Fin 256) (q : Fin 128) :
    matmul dot_S256x512_S512x128_S256x128_1_0_0_1_n_n none l r (constant (F := Ideal) S256x128 .f32 0x00000000#32) (ix2 p q)
      = ∑ k : Fin 512, l (ix2 p k) * r (ix2 k q) :=
  Cert.Mlp.matmul_zero_ix2 dot_S256x512_S512x128_S256x128_1_0_0_1_n_n rfl rfl (fun _ _ => rfl) (fun _ _ => rfl)
    (fun _ _ => rfl) (fun _ _ => rfl) none l r p q

/-- What the body stores at entry `(p, q)` of its block: output `q` of the perceptron on row `p` of the loaded rows. -/
theorem pay_at (v0 : FVec Ideal S256x256 .f32) (v2 : FVec Ideal S256x512 .f32) (v5 : FVec Ideal S1x512 .f32)
    (v11 : FVec Ideal S512x128 .f32) (v14 : FVec Ideal S1x128 .f32) (p : Fin 256) (q : Fin 128) :
    k0_pay1 (F := Ideal) v0 v2 v5 v11 v14 (ix2 p q)
      = Cert.Mlp.outAt (fun a => v0 (ix2 p a)) v2 (fun k => v5 (ix2 (0 : Fin 1) k)) v11 (fun j => v14 (ix2 (0 : Fin 1) j)) q := by
  unfold k0_pay1 Cert.Mlp.outAt Cert.Mlp.hidden
  simp only [addf_apply, shapeCast_self, broadcastTo_1b_ab_apply, mm2_at, maximumf_apply, mm1_at, broadcast_apply]
  rfl

end Cert.ReferenceIdeal.Body

end
-- ==== Proof.RefBlocks.lean ====
/-
  The blocks of the reference's windows, read as pieces of the arrays the region finds.

  The grid has 128 points. At point `t` the output window's block is rows `256 · n` to `256 · n + 255` of the result,
  `n` the block number the index map gives `t`, and the window of `x` has the same rows; the windows of `w1`, `w2` and
  the bias rows are the whole arrays at every point. The 128 output blocks are disjoint runs of rows that fill the result.
-/
import proofs.«116409_g2000500329576943_pallasbulk_122_22_alg».proof.Proof.Gen.ReferenceIdeal.Value
import Idealize.ShloMosaic.Lib.ValueIdx

noncomputable section

namespace Cert.ReferenceIdeal.Blocks

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The zero offsets of a whole-buffer access, as the constant function. -/
theorem hz : (![0, 0] : Fin 2 → Nat) = fun _ => 0 := funext fun a => by fin_cases a <;> rfl

/-- The grid has one axis of 128 points, so a point's one coordinate is its number. -/
theorem coord_val (t : Fin cfg0.N) : (grid0.coords t (0 : Fin 1)).val = t.val := by
  have hs : grid0.stride (0 : Fin 1) = 1 := by decide
  have ht : t.val < 128 := lt_of_lt_of_eq t.isLt N_0
  show t.val / grid0.stride (0 : Fin 1) % 128 = t.val
  rw [hs, Nat.div_one]
  exact Nat.mod_eq_of_lt ht

/-- The output window's row block number at point `t` is `t`: the index map returns the grid coordinate as a 32-bit
    word, and the coordinate is below 128. -/
theorem index5_val (t : Fin cfg0.N) : win0_5.index t (0 : Fin 2) = t.val := by
  have ht : t.val < 128 := lt_of_lt_of_eq t.isLt N_0
  show (BitVec.ofNat 32 (grid0.coords t (0 : Fin 1)).val).toNat = t.val
  rw [coord_val t, BitVec.toNat_ofNat]
  exact Nat.mod_eq_of_lt (by omega)

/-- The index maps at a grid point: the window of `x` moves with the output window along the rows and both stay at
    column block 0; the windows of `w1`, `w2` and the bias rows stay at block (0, 0); the output's row block number is
    at most 127. Each map is read off its definition at a point left as a variable. -/
theorem idx_facts (t : Fin cfg0.N) :
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 127 := by
  have ht : t.val < 128 := lt_of_lt_of_eq t.isLt N_0
  refine ⟨rfl, rfl, rfl, rfl, rfl, rfl, rfl, rfl, rfl, rfl, rfl, ?_⟩
  rw [index5_val t]; omega

/-- Every row block number below 128 is some point's: the point with that number. -/
theorem idx_onto (n : Fin 128) : ∃ t : Fin cfg0.N, win0_5.index t (0 : Fin 2) = n.val :=
  ⟨⟨n.val, lt_of_lt_of_eq n.isLt N_0.symm⟩, index5_val _⟩

/-- Entry `(p, q)` of the output block at point `t` is entry `(r, q)` of the result, `r` the block's first row plus `p`. -/
theorem emb5_eq (t : Fin cfg0.N) (p : Fin 256) (q : Fin 128) (r : Fin 32768)
    (hr : r.val = win0_5.index t (0 : Fin 2) * 256 + p.val) :
    ((cfg0.win 5).blk t).view.emb (ix2 p q) = ix2 r q := by
  obtain ⟨e0, e1, e2, e3, e4, e5, e6, e7, e8, e9, e10, e11⟩ := idx_facts t
  funext a; apply Fin.ext
  match a with
  | ⟨0, _⟩ => show win0_5.index t (0 : Fin 2) * 256 + 1 * p.val = r.val; omega
  | ⟨1, _⟩ => show win0_5.index t (1 : Fin 2) * 128 + 1 * q.val = q.val; omega

/-- Entry `(p, a)` of the first operand's block at point `t` is entry `(r, a)` of its array, `r` the output block's
    first row plus `p`. -/
theorem emb0_eq (t : Fin cfg0.N) (p : Fin 256) (a : Fin 256) (r : Fin 32768)
    (hr : r.val = win0_5.index t (0 : Fin 2) * 256 + p.val) :
    ((cfg0.win 0).blk t).view.emb (ix2 p a) = ix2 r a := by
  obtain ⟨e0, e1, e2, e3, e4, e5, e6, e7, e8, e9, e10, e11⟩ := idx_facts t
  funext ax; apply Fin.ext
  match ax with
  | ⟨0, _⟩ => show win0_0.index t (0 : Fin 2) * 256 + 1 * p.val = r.val; omega
  | ⟨1, _⟩ => show win0_0.index t (1 : Fin 2) * 256 + 1 * a.val = a.val; omega

/-- The second operand's block at every point is its whole array: an entry of the block is the same entry of the array. -/
theorem emb1_eq (t : Fin cfg0.N) (y : S256x512.Idx) : ((cfg0.win 1).blk t).view.emb y = y := by
  obtain ⟨e0, e1, e2, e3, e4, e5, e6, e7, e8, e9, e10, e11⟩ := idx_facts t
  funext ax; apply Fin.ext
  match ax with
  | ⟨0, _⟩ => show win0_1.index t (0 : Fin 2) * 256 + 1 * (y 0).val = (y 0).val; omega
  | ⟨1, _⟩ => show win0_1.index t (1 : Fin 2) * 512 + 1 * (y 1).val = (y 1).val; omega

/-- The third operand's block at every point is its whole one-row array. -/
theorem emb2_eq (t : Fin cfg0.N) (k : Fin 512) :
    ((cfg0.win 2).blk t).view.emb (ix2 (0 : Fin 1) k) = ix2 (0 : Fin 1) k := by
  obtain ⟨e0, e1, e2, e3, e4, e5, e6, e7, e8, e9, e10, e11⟩ := idx_facts t
  funext ax; apply Fin.ext
  match ax with
  | ⟨0, _⟩ => show win0_2.index t (0 : Fin 2) * 1 + 1 * 0 = 0; omega
  | ⟨1, _⟩ => show win0_2.index t (1 : Fin 2) * 512 + 1 * k.val = k.val; omega

/-- The fourth operand's block at every point is its whole array. -/
theorem emb3_eq (t : Fin cfg0.N) (y : S512x128.Idx) : ((cfg0.win 3).blk t).view.emb y = y := by
  obtain ⟨e0, e1, e2, e3, e4, e5, e6, e7, e8, e9, e10, e11⟩ := idx_facts t
  funext ax; apply Fin.ext
  match ax with
  | ⟨0, _⟩ => show win0_3.index t (0 : Fin 2) * 512 + 1 * (y 0).val = (y 0).val; omega
  | ⟨1, _⟩ => show win0_3.index t (1 : Fin 2) * 128 + 1 * (y 1).val = (y 1).val; omega

/-- The fifth operand's block at every point is its whole one-row array. -/
theorem emb4_eq (t : Fin cfg0.N) (j : Fin 128) :
    ((cfg0.win 4).blk t).view.emb (ix2 (0 : Fin 1) j) = ix2 (0 : Fin 1) j := by
  obtain ⟨e0, e1, e2, e3, e4, e5, e6, e7, e8, e9, e10, e11⟩ := idx_facts t
  funext ax; apply Fin.ext
  match ax with
  | ⟨0, _⟩ => show win0_4.index t (0 : Fin 2) * 1 + 1 * 0 = 0; omega
  | ⟨1, _⟩ => show win0_4.index t (1 : Fin 2) * 128 + 1 * j.val = j.val; omega

/-- Row `p` of the block of the first operand at point `t` is row `r` of the array the region finds, `r` the output
    block's first row plus `p`: the block's read is the array at the block's place in it. -/
theorem blk0_at (c : Dev nD) (t : Fin cfg0.N) (p : Fin 256) (a : Fin 256) (r : Fin 32768)
    (hr : r.val = win0_5.index t (0 : Fin 2) * 256 + p.val) :
    iblk m c 0 t (ix2 p a) = V m c (Pipeline.arrRef spec0 0) (ix2 r a) := by
  unfold iblk
  rw [View.read_apply, emb0_eq t p a r hr]
  exact cast_eq _ _

/-- The block of the second operand at every point is the whole array the region finds. -/
theorem blk1_eq (c : Dev nD) (t : Fin cfg0.N) :
    iblk m c 1 t = V m c (Pipeline.arrRef spec0 1) := by
  funext y
  unfold iblk
  rw [View.read_apply, emb1_eq t y]
  exact cast_eq _ _

/-- The block of the fourth operand at every point is the whole array the region finds. -/
theorem blk3_eq (c : Dev nD) (t : Fin cfg0.N) :
    iblk m c 3 t = V m c (Pipeline.arrRef spec0 3) := by
  funext y
  unfold iblk
  rw [View.read_apply, emb3_eq t y]
  exact cast_eq _ _

/-- The block of the first bias row at every point is the whole one-row array the region finds. -/
theorem blk2_at (c : Dev nD) (t : Fin cfg0.N) (k : Fin 512) :
    iblk m c 2 t (ix2 (0 : Fin 1) k) = V m c (Pipeline.arrRef spec0 2) (ix2 (0 : Fin 1) k) := by
  unfold iblk
  rw [View.read_apply, emb2_eq t k]
  exact cast_eq _ _

/-- The block of the second bias row at every point is the whole one-row array the region finds. -/
theorem blk4_at (c : Dev nD) (t : Fin cfg0.N) (j : Fin 128) :
    iblk m c 4 t (ix2 (0 : Fin 1) j) = V m c (Pipeline.arrRef spec0 4) (ix2 (0 : Fin 1) j) := by
  unfold iblk
  rw [View.read_apply, emb4_eq t j]
  exact cast_eq _ _

/-- An entry of the result is in the output block at point `t` iff each coordinate is in the block's range on its axis. -/
theorem mem_blk5 (t : Fin cfg0.N) (i : S32768x128.Idx) :
    i ∈ ((cfg0.win 5).blk t).view.set ↔ ∀ a : Fin 2, win0_5.index t a * S256x128.size a ≤ (i a).val ∧ (i a).val < win0_5.index t a * S256x128.size a + S256x128.size a := by
  show i ∈ ((View.whole main_v12).slice (win0_5.rect t)).set ↔ _
  rw [View.set_slice_whole, Rect.mem_set_unit]
  exact Iff.rfl

/-- Every entry of the result is in the output block of some point: the point whose block number is the entry's row
    divided by 256. -/
theorem cover5 (i : S32768x128.Idx) : ∃ t : Fin cfg0.N, (cfg0.win 5).flush t = true ∧ i ∈ ((cfg0.win 5).blk t).view.set := by
  have hi0 : (i 0).val < 32768 := (i 0).isLt
  have hi1 : (i 1).val < 128 := (i 1).isLt
  obtain ⟨t, ht⟩ := idx_onto ⟨(i 0).val / 256, by omega⟩
  have q0 : win0_5.index t (0 : Fin 2) = (i 0).val / 256 := ht
  obtain ⟨e0, e1, e2, e3, e4, e5, e6, e7, e8, e9, e10, e11⟩ := idx_facts t
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 128 ≤ (i 1).val ∧ (i 1).val < win0_5.index t (1 : Fin 2) * 128 + 128; omega

end Cert.ReferenceIdeal.Blocks

end
-- ==== Proof.RefPads.lean ====
/-
  The arrays the reference's region finds.

  Before the call the reference writes every operand into a zero-filled array of the padded shape. At these sizes no
  padding is left: `x`, `w1` and `w2` are set over the whole of arrays of their own shapes, so what the region finds is
  `x`, `w1` and `w2` as launched; and each bias vector is set as the one row of a one-row array, so entry `(0, k)` of
  that array is entry `k` of the bias vector. Nothing of the zero fill survives, and no arithmetic is done on it.
-/
import proofs.«116409_g2000500329576943_pallasbulk_122_22_alg».proof.Proof.Gen.ReferenceIdeal.Value
import proofs.«116409_g2000500329576943_pallasbulk_122_22_alg».proof.Proof.LibScatterSet
import Idealize.ShloMosaic.Lib.ValueIdx
import Idealize.ShloMosaic.Lib.ValueLayout
import Idealize.ShloMosaic.Lib.StableHlo.Run

noncomputable section

namespace Cert.ReferenceIdeal.Pads

open Cert.ReferenceIdeal Cert.ReferenceIdeal.Gen Idealize.ShloMosaic Idealize.ShloMosaic.TcCoe Idealize.SL.Sem
open Idealize.ShloMosaic.ValueIdx

variable (m : (ℓ : Loc nD τ sig) → Buf (Elt Ideal) ℓ)

/-- The scatter index both row sets use is the single word 0. -/
theorem idx_zero (k : S1.Idx) : broadcastInDim S1 ![] bcast_S_S1 (constantI S_ 32 0#32) k = 0#32 := rfl

/-- `x` set over the whole of a zero array of its shape is `x` as launched. -/
theorem v11_eq (c : Dev nD) : (V m c main_v11 : S32768x256.Idx → EReal) = m ((c : Thread nD τ).loc main_arg0) := by
  have e : (V m c main_v11 : S32768x256.Idx → EReal)
      = Host.scatter scatter_S32768x256_S0_S32768x256_01_n_n_0 (fun _ b => b)
          (broadcastInDim S32768x256 ![] bcast_S_S32768x256 (constant (F := Ideal) S_ .f32 0x00000000#32))
          (emptyVec S0 hz_S0 : IVec S0 32) (m ((c : Thread nD τ).loc main_arg0)) := by
    dsimp only [V, hostOps0]; after_results
  rw [e]
  exact Cert.LibScatterSet.scatter_set_whole _ scatter_S32768x256_S0_S32768x256_01_n_n_0 rfl rfl rfl _ _ _

/-- `w1` set over the whole of a zero array of its shape is `w1` as launched. -/
theorem v1_eq (c : Dev nD) : (V m c main_v1 : S256x512.Idx → EReal) = m ((c : Thread nD τ).loc main_arg1) := by
  have e : (V m c main_v1 : S256x512.Idx → EReal)
      = Host.scatter scatter_S256x512_S0_S256x512_01_n_n_0 (fun _ b => b)
          (broadcastInDim S256x512 ![] bcast_S_S256x512 (constant (F := Ideal) S_ .f32 0x00000000#32))
          (emptyVec S0 hz_S0 : IVec S0 32) (m ((c : Thread nD τ).loc main_arg1)) := by
    dsimp only [V, hostOps0]; after_results
  rw [e]
  exact Cert.LibScatterSet.scatter_set_whole _ scatter_S256x512_S0_S256x512_01_n_n_0 rfl rfl rfl _ _ _

/-- `w2` set over the whole of a zero array of its shape is `w2` as launched. -/
theorem v6_eq (c : Dev nD) : (V m c main_v6 : S512x128.Idx → EReal) = m ((c : Thread nD τ).loc main_arg3) := by
  have e : (V m c main_v6 : S512x128.Idx → EReal)
      = Host.scatter scatter_S512x128_S0_S512x128_01_n_n_0 (fun _ b => b)
          (broadcastInDim S512x128 ![] bcast_S_S512x128 (constant (F := Ideal) S_ .f32 0x00000000#32))
          (emptyVec S0 hz_S0 : IVec S0 32) (m ((c : Thread nD τ).loc main_arg3)) := by
    dsimp only [V, hostOps0]; after_results
  rw [e]
  exact Cert.LibScatterSet.scatter_set_whole _ scatter_S512x128_S0_S512x128_01_n_n_0 rfl rfl rfl _ _ _

/-- The first bias row at region entry: entry `(0, k)` is entry `k` of the launched `b1`. -/
theorem v4_at (c : Dev nD) (k : Fin 512) :
    (V m c main_v4 : S1x512.Idx → EReal) (ix2 (0 : Fin 1) k) = m ((c : Thread nD τ).loc main_arg2) (ix1 k) := by
  have e : (V m c main_v4 : S1x512.Idx → EReal)
      = Host.scatter scatter_S1x512_S1_S512_0_0_0_0 (fun _ b => b)
          (broadcastInDim S1x512 ![] bcast_S_S1x512 (constant (F := Ideal) S_ .f32 0x00000000#32))
          (broadcastInDim S1 ![] bcast_S_S1 (constantI S_ 32 0#32)) (m ((c : Thread nD τ).loc main_arg2)) := by
    dsimp only [V, hostOps0]; after_results
  rw [e, Cert.LibScatterSet.scatter_set_row 512 scatter_S1x512_S1_S512_0_0_0_0 rfl rfl _ _ idx_zero]

/-- The second bias row at region entry: entry `(0, j)` is entry `j` of the launched `b2`. -/
theorem v9_at (c : Dev nD) (j : Fin 128) :
    (V m c main_v9 : S1x128.Idx → EReal) (ix2 (0 : Fin 1) j) = m ((c : Thread nD τ).loc main_arg4) (ix1 j) := by
  have e : (V m c main_v9 : S1x128.Idx → EReal)
      = Host.scatter scatter_S1x128_S1_S128_0_0_0_0 (fun _ b => b)
          (broadcastInDim S1x128 ![] bcast_S_S1x128 (constant (F := Ideal) S_ .f32 0x00000000#32))
          (broadcastInDim S1 ![] bcast_S_S1 (constantI S_ 32 0#32)) (m ((c : Thread nD τ).loc main_arg4)) := by
    dsimp only [V, hostOps0]; after_results
  rw [e, Cert.LibScatterSet.scatter_set_row 128 scatter_S1x128_S1_S128_0_0_0_0 rfl rfl _ _ idx_zero]

end Cert.ReferenceIdeal.Pads

end
-- ==== Proof.RefValue.lean ====
/-
  The reference's result array after the run.

  At grid point `t` the body's stores leave in the output block, at entry `(p, q)`, output `q` of the perceptron on row
  `p` of the block of `x`; that row is row `256 · n + p` of `x`, `n` the point's block number, and entry `(p, q)` of the
  block is entry `(256 · n + p, q)` of the result. The arrays the windows stage are the launched arrays (the sets over
  zero arrays leave no zero). So each point writes back its block of the one function `G` of the launched arrays, and
  since the 128 blocks fill the result, the result is `G`.
-/
import proofs.«116409_g2000500329576943_pallasbulk_122_22_alg».proof.Proof.Gen.ReferenceIdeal.Value
import proofs.«116409_g2000500329576943_pallasbulk_122_22_alg».proof.Proof.Spec
import proofs.«116409_g2000500329576943_pallasbulk_122_22_alg».proof.Proof.RefBody
import proofs.«116409_g2000500329576943_pallasbulk_122_22_alg».proof.Proof.RefBlocks
import proofs.«116409_g2000500329576943_pallasbulk_122_22_alg».proof.Proof.RefPads
import Idealize.ShloMosaic.Lib.Pipeline.Value

noncomputable section

namespace Cert.ReferenceIdeal.Result

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The perceptron of the arrays core `c` was launched with. -/
abbrev Gm (c : Dev nD) : S32768x128.Idx → EReal :=
  Cert.Mlp.G (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is its block of `G` of the launched arrays. -/
theorem flushed_eq (c : Dev nD) (t : Fin cfg0.N) :
    (dats m 0 c).flushed 5 t = ((cfg0.win 5).blk t).view.read (Elt Ideal) (Gm m c) := by
  rw [Cert.ReferenceIdeal.Value.flushed5]
  unfold out0_5
  rw [View.canon_unit_zero Blocks.hz]
  simp only [View.ld_unit_zero (S := S256x256) Blocks.hz, View.ld_unit_zero (S := S256x512) Blocks.hz,
    View.ld_unit_zero (S := S1x512) Blocks.hz, View.ld_unit_zero (S := S512x128) Blocks.hz,
    View.ld_unit_zero (S := S1x128) Blocks.hz]
  funext y
  obtain ⟨p, q, rfl⟩ : ∃ (p : Fin 256) (q : Fin 128), y = ix2 p q := ⟨y 0, y 1, eq_ix2 y⟩
  have hn : win0_5.index t (0 : Fin 2) ≤ 127 := (Blocks.idx_facts t).2.2.2.2.2.2.2.2.2.2.2
  have hp : p.val < 256 := p.isLt
  have e5 := Blocks.emb5_eq t p q ⟨win0_5.index t (0 : Fin 2) * 256 + p.val, by omega⟩ rfl
  show k0_pay1 (iblk m c 0 t) (iblk m c 1 t) (iblk m c 2 t) (iblk m c 3 t) (iblk m c 4 t) (ix2 p q)
    = Gm m c (((cfg0.win 5).blk t).view.emb (ix2 p q))
  rw [e5]
  refine (Body.pay_at _ _ _ _ _ p q).trans ?_
  refine Eq.trans ?_ (Cert.Mlp.G_ix2 _ _ _ _ _ _ q).symm
  exact Cert.Mlp.outAt_congr
    (funext fun a => (Blocks.blk0_at m c t p a _ rfl).trans (congrFun (Pads.v11_eq m c) _))
    ((Blocks.blk1_eq m c t).trans (Pads.v1_eq m c))
    (funext fun k => (Blocks.blk2_at m c t k).trans (Pads.v4_at m c k))
    ((Blocks.blk3_eq m c t).trans (Pads.v6_eq m c))
    (funext fun j => (Blocks.blk4_at m c t j).trans (Pads.v9_at m c j))
    q

/-- The result array after the run is `G` of the launched arrays: the points' blocks fill it. -/
theorem final (c : Dev nD) : (dats m 0 c).arrAt 5 cfg0.N = Gm m c :=
  (dats m 0 c).arrAt_eq_of_cover 5 (Gm m c) (fun t _ => flushed_eq m c t) Blocks.cover5

/-- The run: every weakly fair execution ends with the result at `G` of the launched arrays and the arguments unchanged. -/
theorem run : θ_run defs (onTc (τ := τ) (main (F := Ideal))) ⟨m, fun _ => 0, ρ⟩ fun r => ∀ c : Dev nD,
      r.2.mem ((c : Thread nD τ).loc main_v12) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.ReferenceIdeal.Value.run_blocks m ρ)

end Cert.ReferenceIdeal.Result

end
-- ==== Proof.lean ====
/-
  The claim: a two-layer perceptron computed 8192 rows at a time equals the same perceptron computed 256 rows at a time.

  Both programs compute, for row `r` of `x` and output `j`,
      `∑ k, max (∑ a, x[r, a] · w1[a, k] + b1[k]) 0 · w2[k, j] + b2[j]`
  on the extended reals, with each sum over one fixed index type. The kernel runs this on four blocks of 8192 rows, the
  reference on 128 blocks of 256 rows; a row's value depends on that row alone, so both result arrays are the one
  function `Cert.Mlp.G` of the launched arrays, and the two are equal with no law of arithmetic and no use of finiteness.
  The reference first writes every operand over a zero-filled array of the same shape, and both write each bias vector
  as the one row of a zero-filled one-row array: these are overwrites of every entry, which leave the launched values.

  The three frames are the generated ones. Nothing was rewritten between the kernel and its idealization, so that
  conjunct is `True`.
-/
import proofs.«116409_g2000500329576943_pallasbulk_122_22_alg».proof.Defs
import proofs.«116409_g2000500329576943_pallasbulk_122_22_alg».proof.Proof.Gen.Kernel
import proofs.«116409_g2000500329576943_pallasbulk_122_22_alg».proof.Proof.Gen.Kernel.Frame
import proofs.«116409_g2000500329576943_pallasbulk_122_22_alg».proof.Proof.Gen.KernelIdeal
import proofs.«116409_g2000500329576943_pallasbulk_122_22_alg».proof.Proof.Gen.KernelIdeal.Frame
import proofs.«116409_g2000500329576943_pallasbulk_122_22_alg».proof.Proof.Gen.KernelIdeal.Value
import proofs.«116409_g2000500329576943_pallasbulk_122_22_alg».proof.Proof.Gen.ReferenceIdeal
import proofs.«116409_g2000500329576943_pallasbulk_122_22_alg».proof.Proof.Gen.ReferenceIdeal.Frame
import proofs.«116409_g2000500329576943_pallasbulk_122_22_alg».proof.Proof.Gen.ReferenceIdeal.Value
import proofs.«116409_g2000500329576943_pallasbulk_122_22_alg».proof.Proof.Gen.Pre_finite_inputs
import proofs.«116409_g2000500329576943_pallasbulk_122_22_alg».proof.Proof.KernelValue
import proofs.«116409_g2000500329576943_pallasbulk_122_22_alg».proof.Proof.RefValue

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged. -/
theorem frame_ri : Cert.frame_ReferenceIdeal := fun m ρ _ => Cert.ReferenceIdeal.Gen.frame m ρ

/-- From memories that agree on the five arguments, both idealized programs end with the result array at the
    perceptron `G` of those arguments. -/
theorem algebraic : Cert.algebraic_KernelIdeal_ReferenceIdeal := by
  intro m ρ m' ρ' _ hagree
  refine ⟨fun c => Cert.KernelIdeal.Result.Gm m c, Cert.KernelIdeal.Result.run m ρ, ?_⟩
  refine (θ_run Cert.ReferenceIdeal.defs _ _).mono (fun r h c => ⟨(h c).1.trans ?_, (h c).2⟩)
    (Cert.ReferenceIdeal.Result.run m' ρ')
  show Cert.Mlp.G _ _ _ _ _ = Cert.Mlp.G _ _ _ _ _
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
